-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1 : Shape := ⟨3, ![1, 8192, 1]⟩
abbrev S_ : Shape := ⟨0, ![]⟩

class Facts : Prop where
  bcast_S_S1x8192x1 : S_.BroadcastsInDim S1x8192x1 (![] : Fin 0 → Fin S1x8192x1.rank)
  reducesTo_S1x8192x1_S_d0_1_2 : S1x8192x1.ReducesTo [0, 1, 2] S_
  h_S_ : 0 < S_.numel

variable [Facts]

def fn {F : FTy → Type} [FloatOps F] (main_arg0 : FVec F S1x8192x1 .f32) (main_arg1 : FVec F S1x8192x1 .f32) (main_arg2 : FVec F S1x8192x1 .f32) : IVec S_ 1 :=
  let main_v0 : FVec F S1x8192x1 .f32 := Host.absf main_arg0
  let main_cst : FVec F S_ .f32 := constant S_ .f32 0x7F800000#32
  let main_v1 : FVec F S1x8192x1 .f32 := broadcastInDim S1x8192x1 ![] bcast_S_S1x8192x1 main_cst
  let main_v2 : IVec S1x8192x1 1 := cmpf .olt main_v0 main_v1
  let main_c : IVec S_ 1 := constantI S_ 1 1#1
  let main_v3 : IVec S_ 1 := (fun x v => Host.reduce IntOp.andi x v reducesTo_S1x8192x1_S_d0_1_2 h_S_) main_v2 main_c
  let main_v4 : FVec F S1x8192x1 .f32 := Host.absf main_arg1
  let main_cst_0 : FVec F S_ .f32 := constant S_ .f32 0x7F800000#32
  let main_v5 : FVec F S1x8192x1 .f32 := broadcastInDim S1x8192x1 ![] bcast_S_S1x8192x1 main_cst_0
  let main_v6 : IVec S1x8192x1 1 := cmpf .olt main_v4 main_v5
  let main_c_1 : IVec S_ 1 := constantI S_ 1 1#1
  let main_v7 : IVec S_ 1 := (fun x v => Host.reduce IntOp.andi x v reducesTo_S1x8192x1_S_d0_1_2 h_S_) main_v6 main_c_1
  let main_v8 : IVec S_ 1 := andi main_v3 main_v7
  let main_v9 : FVec F S1x8192x1 .f32 := Host.absf main_arg2
  let main_cst_2 : FVec F S_ .f32 := constant S_ .f32 0x7F800000#32
  let main_v10 : FVec F S1x8192x1 .f32 := broadcastInDim S1x8192x1 ![] bcast_S_S1x8192x1 main_cst_2
  let main_v11 : IVec S1x8192x1 1 := cmpf .olt main_v9 main_v10
  let main_c_3 : IVec S_ 1 := constantI S_ 1 1#1
  let main_v12 : IVec S_ 1 := (fun x v => Host.reduce IntOp.andi x v reducesTo_S1x8192x1_S_d0_1_2 h_S_) main_v11 main_c_3
  let main_v13 : IVec S_ 1 := andi main_v8 main_v12
  main_v13
-- ==== Kernel.lean ====
abbrev S1x8192x1 : Shape := ⟨3, ![1, 8192, 1]⟩
abbrev S64x128 : Shape := ⟨2, ![64, 128]⟩

abbrev nBuf : Space → Nat
  | .hbm => 10
  | .vmem => 5
  | .smem => 0
  | _ => 0

abbrev bufTy : (tb : Table) → Fin (tcTables nBuf tb) → BufTy
  | .hbm, ⟨0, _⟩ => ⟨S1x8192x1, .f32⟩
  | .hbm, ⟨1, _⟩ => ⟨S1x8192x1, .f32⟩
  | .hbm, ⟨2, _⟩ => ⟨S1x8192x1, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x8192x1, .f32⟩
  | .hbm, ⟨9, _⟩ => ⟨S1x8192x1, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | _, _ => ⟨S1x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  shapeCasts_S1x8192x1_S64x128 : S1x8192x1.ShapeCasts S64x128
  shapeCasts_S64x128_S1x8192x1 : S64x128.ShapeCasts S1x8192x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  natLt_1_32 : 1 < 32
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev win0_0 : Pipeline.Window sig grid0 :=
  Pipeline.Window.whole (Memref.whole main_call0_v0) false false (stage0_0 0) (sem0_0 0) (Memref.isWhole_whole _) (hstage0_0 0)

abbrev win0_1 : Pipeline.Window sig grid0 :=
  Pipeline.Window.whole (Memref.whole main_call0_v1) false false (stage0_1 0) (sem0_1 0) (Memref.isWhole_whole _) (hstage0_1 0)

abbrev win0_2 : Pipeline.Window sig grid0 :=
  Pipeline.Window.whole (Memref.whole main_call0_v2) false false (stage0_2 0) (sem0_2 0) (Memref.isWhole_whole _) (hstage0_2 0)

abbrev win0_3 : Pipeline.Window sig grid0 :=
  Pipeline.Window.whole (Memref.whole main_call0_v3_0) true false (stage0_3 0) (sem0_3 0) (Memref.isWhole_whole _) (hstage0_3 0)

abbrev win0_4 : Pipeline.Window sig grid0 :=
  Pipeline.Window.whole (Memref.whole main_call0_v3_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192x1 : Shape := ⟨3, ![1, 8192, 1]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192x8192 : Shape := ⟨3, ![1, 8192, 8192]⟩

abbrev nBuf : Space → Nat
  | .hbm => 110
  | .vmem => 0
  | .smem => 0
  | _ => 0

abbrev bufTy : (tb : Table) → Fin (tcTables nBuf tb) → BufTy
  | .hbm, ⟨0, _⟩ => ⟨S1x8192x1, .f32⟩
  | .hbm, ⟨1, _⟩ => ⟨S1x8192x1, .f32⟩
  | .hbm, ⟨2, _⟩ => ⟨S1x8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x8192x1, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .i1⟩
  | .hbm, ⟨18, _⟩ => ⟨S_, .f32⟩
  | .hbm, ⟨19, _⟩ => ⟨S1x8192x1, .f32⟩
  | .hbm, ⟨20, _⟩ => ⟨S1x8192x1, .i1⟩
  | .hbm, ⟨21, _⟩ => ⟨S1x8192x1, .i1⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .i1⟩
  | .hbm, ⟨26, _⟩ => ⟨S_, .f32⟩
  | .hbm, ⟨27, _⟩ => ⟨S1x8192x1, .f32⟩
  | .hbm, ⟨28, _⟩ => ⟨S1x8192x1, .i1⟩
  | .hbm, ⟨29, _⟩ => ⟨S1x8192x1, .i1⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .i1⟩
  | .hbm, ⟨34, _⟩ => ⟨S_, .f32⟩
  | .hbm, ⟨35, _⟩ => ⟨S1x8192x1, .f32⟩
  | .hbm, ⟨36, _⟩ => ⟨S1x8192x1, .i1⟩
  | .hbm, ⟨37, _⟩ => ⟨S1x8192x1, .i1⟩
  | .hbm, ⟨38, _⟩ => ⟨S1x8192x1, .f32⟩
  | .hbm, ⟨39, _⟩ => ⟨S1x8192x1, .f32⟩
  | .hbm, ⟨40, _⟩ => ⟨S1x8192x1, .f32⟩
  | .hbm, ⟨41, _⟩ => ⟨S1x8192x1, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S1x8192x1, .f32⟩
  | .hbm, ⟨47, _⟩ => ⟨S1x8192x1, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192x8192, .i32⟩
  | .hbm, ⟨52, _⟩ => ⟨S8192x8192, .i32⟩
  | .hbm, ⟨53, _⟩ => ⟨S_, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x1, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S1x8192x8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x1, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S1x8192x8192, .f32⟩
  | .hbm, ⟨78, _⟩ => ⟨S_, .f32⟩
  | .hbm, ⟨79, _⟩ => ⟨S1x8192x8192, .f32⟩
  | .hbm, ⟨80, _⟩ => ⟨S1x8192x8192, .f32⟩
  | .hbm, ⟨81, _⟩ => ⟨S8192x8192, .f32⟩
  | .hbm, ⟨82, _⟩ => ⟨S8192x1, .f32⟩
  | .hbm, ⟨83, _⟩ => ⟨S8192x1, .f32⟩
  | .hbm, ⟨84, _⟩ => ⟨S1x8192x1, .f32⟩
  | .hbm, ⟨85, _⟩ => ⟨S_, .f32⟩
  | .hbm, ⟨86, _⟩ => ⟨S1x8192x8192, .f32⟩
  | .hbm, ⟨87, _⟩ => ⟨S1x8192x8192, .f32⟩
  | .hbm, ⟨88, _⟩ => ⟨S8192x8192, .f32⟩
  | .hbm, ⟨89, _⟩ => ⟨S8192x1, .f32⟩
  | .hbm, ⟨90, _⟩ => ⟨S8192x1, .f32⟩
  | .hbm, ⟨91, _⟩ => ⟨S1x8192x1, .f32⟩
  | .hbm, ⟨92, _⟩ => ⟨S1x8192x1, .f32⟩
  | .hbm, ⟨93, _⟩ => ⟨S1x8192x1, .f32⟩
  | .hbm, ⟨94, _⟩ => ⟨S_, .f32⟩
  | .hbm, ⟨95, _⟩ => ⟨S1x8192x8192, .f32⟩
  | .hbm, ⟨96, _⟩ => ⟨S1x8192x8192, .f32⟩
  | .hbm, ⟨97, _⟩ => ⟨S8192x8192, .f32⟩
  | .hbm, ⟨98, _⟩ => ⟨S8192x1, .f32⟩
  | .hbm, ⟨99, _⟩ => ⟨S8192x1, .f32⟩
  | .hbm, ⟨100, _⟩ => ⟨S1x8192x1, .f32⟩
  | .hbm, ⟨101, _⟩ => ⟨S_, .f32⟩
  | .hbm, ⟨102, _⟩ => ⟨S1x8192x8192, .f32⟩
  | .hbm, ⟨103, _⟩ => ⟨S1x8192x8192, .f32⟩
  | .hbm, ⟨104, _⟩ => ⟨S8192x8192, .f32⟩
  | .hbm, ⟨105, _⟩ => ⟨S8192x1, .f32⟩
  | .hbm, ⟨106, _⟩ => ⟨S8192x1, .f32⟩
  | .hbm, ⟨107, _⟩ => ⟨S1x8192x1, .f32⟩
  | .hbm, ⟨108, _⟩ => ⟨S1x8192x1, .f32⟩
  | .hbm, ⟨109, _⟩ => ⟨S1x8192x1, .f32⟩
  | _, _ => ⟨S1x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_c : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_0 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_c : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_cst_0 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v35 : Ref sig .tc := ⟨.hbm, 76, rfl⟩
abbrev main_v36 : Ref sig .tc := ⟨.hbm, 77, rfl⟩
abbrev main_cst_8 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_9 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_11 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩

abbrev nD : Nat := 1
abbrev τ : Topo := Topo.v7x

variable {F : FTy → Type} [FloatOps F]

class Facts₀ : Prop where
  bcast_S_S1x8192x1 : S_.BroadcastsInDim S1x8192x1 (![] : Fin 0 → Fin S1x8192x1.rank)
  shapeCasts_S1x8192x1_S8192 : S1x8192x1.ShapeCasts S8192
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x8192_S1x8192x8192_1_2 : S8192x8192.BroadcastsInDim S1x8192x8192 (![1, 2] : Fin 2 → Fin S1x8192x8192.rank)
  bcast_S_S1x8192x8192 : S_.BroadcastsInDim S1x8192x8192 (![] : Fin 0 → Fin S1x8192x8192.rank)
  shapeCasts_S1x8192x8192_S8192x8192 : S1x8192x8192.ShapeCasts S8192x8192
  shapeCasts_S1x8192x1_S8192x1 : S1x8192x1.ShapeCasts S8192x1
  bcast_S8192x1_S1x8192x1_1_2 : S8192x1.BroadcastsInDim S1x8192x1 (![1, 2] : Fin 2 → Fin S1x8192x1.rank)
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KernelStages.lean ====
/-
  The kernel program's two results as functions of its arguments.

  The body loads three [64, 128] blocks (lb, ub, alpha), computes entrywise, and stores two blocks: the lower bound
  (lower weight times lb) and the upper bound (upper weight times ub, plus the bias).  The program feeds it the
  three [1, 8192, 1] arguments reshaped to [64, 128] and reshapes its two results back.
-/
import proofs.«172241_j89446988907158_2_alg».proof.Proof.Gen.KernelIdeal.Skeleton

noncomputable section

namespace Cert.KernelIdeal.Hand

open Cert.KernelIdeal Cert.KernelIdeal.Gen Idealize.ShloMosaic

variable {F : FTy → Type} [FloatOps F]

/-- The body's stored values as functions of its three loaded blocks (lb, ub, alpha as [64, 128]). -/
def bodyLower (x0 x1 x2 : Vec F S64x128 .f32) : Vec F S64x128 .f32 :=
  k0_pay1 (k0_pay3 x0) (k0_pay9 x0 x1 x2)
def bodyUpper (x0 x1 : Vec F S64x128 .f32) : Vec F S64x128 .f32 :=
  k0_pay2 (k0_pay3 x0) (k0_pay4 x1) (k0_pay8 x0 x1) (k0_pay10 x0 x1) (k0_pay11 x0 x1)

/-- The program's two results as functions of its arguments: reshape, the body, reshape back. -/
def kLower (lb ub al : FVec F S1x8192x1 .f32) : FVec F S1x8192x1 .f32 :=
  shapeCast S1x8192x1 (bodyLower (shapeCast S64x128 lb shapeCasts_S1x8192x1_S64x128)
    (shapeCast S64x128 ub shapeCasts_S1x8192x1_S64x128) (shapeCast S64x128 al shapeCasts_S1x8192x1_S64x128))
    shapeCasts_S64x128_S1x8192x1
def kUpper (lb ub : FVec F S1x8192x1 .f32) : FVec F S1x8192x1 .f32 :=
  shapeCast S1x8192x1 (bodyUpper (shapeCast S64x128 lb shapeCasts_S1x8192x1_S64x128)
    (shapeCast S64x128 ub shapeCasts_S1x8192x1_S64x128)) shapeCasts_S64x128_S1x8192x1

end Cert.KernelIdeal.Hand

end
-- ==== Proof.KernelValue.lean ====
/-
  What the kernel's program leaves in its two results.

  The program reshapes the three [1, 8192, 1] arguments to [64, 128], runs the body once on the whole arrays (no grid:
  each window's block is its whole array), and reshapes the body's two [64, 128] results back to [1, 8192, 1].  So each
  result is the body's entrywise arithmetic of the reshaped arguments, reshaped back (kLower, kUpper).  This module
  reads that off the program's run: the one block written back is the whole array, the arrays the body finds are the
  reshaped arguments, and the two trailing reshapes are applied to the arrays the body left.
-/
import proofs.«172241_j89446988907158_2_alg».proof.Proof.Gen.KernelIdeal.Frame
import proofs.«172241_j89446988907158_2_alg».proof.Proof.KernelStages
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

variable (m : (ℓ : Loc nD τ sig) → Buf (Elt F) ℓ) (ρ : Dev nD → PrngReg)

theorem hz : (![0, 0] : Fin 2 → Nat) = fun _ => 0 := funext fun a => by fin_cases a <;> rfl

/-! ## The arrays the body finds: the arguments reshaped -/

theorem V_v0 (c : Dev nD) : (V m c main_call0_v0 : Vec F S64x128 .f32)
    = shapeCast S64x128 (m ((c : Thread nD τ).loc main_arg0)) shapeCasts_S1x8192x1_S64x128 := by
  show StableHlo.after hostOps0 (fun b => m (c, b)) (Proc.devRef .tc main_call0_v0) = _
  after_results
  rfl

theorem V_v1 (c : Dev nD) : (V m c main_call0_v1 : Vec F S64x128 .f32)
    = shapeCast S64x128 (m ((c : Thread nD τ).loc main_arg1)) shapeCasts_S1x8192x1_S64x128 := by
  show StableHlo.after hostOps0 (fun b => m (c, b)) (Proc.devRef .tc main_call0_v1) = _
  after_results
  rfl

theorem V_v2 (c : Dev nD) : (V m c main_call0_v2 : Vec F S64x128 .f32)
    = shapeCast S64x128 (m ((c : Thread nD τ).loc main_arg2)) shapeCasts_S1x8192x1_S64x128 := by
  show StableHlo.after hostOps0 (fun b => m (c, b)) (Proc.devRef .tc main_call0_v2) = _
  after_results
  rfl

/-! ## Each window's one block is its whole array -/

theorem iblk0 (c : Dev nD) (t : Fin cfg0.N) : (iblk m c 0 t : Vec F S64x128 .f32) = V m c main_call0_v0 := by
  unfold iblk
  have hz' : (fun a => win0_0.index t a * main_call0_v0.ty.shape.size a) = fun _ => 0 := funext fun a => by fin_cases a <;> exact Nat.zero_mul _
  exact Memref.read_access_unit_zero (Elt F) main_call0_v0 hz' (fun a => by rw [congrFun hz' a]; simp) _

theorem iblk1 (c : Dev nD) (t : Fin cfg0.N) : (iblk m c 1 t : Vec F S64x128 .f32) = V m c main_call0_v1 := by
  unfold iblk
  have hz' : (fun a => win0_1.index t a * main_call0_v1.ty.shape.size a) = fun _ => 0 := funext fun a => by fin_cases a <;> exact Nat.zero_mul _
  exact Memref.read_access_unit_zero (Elt F) main_call0_v1 hz' (fun a => by rw [congrFun hz' a]; simp) _

theorem iblk2 (c : Dev nD) (t : Fin cfg0.N) : (iblk m c 2 t : Vec F S64x128 .f32) = V m c main_call0_v2 := by
  unfold iblk
  have hz' : (fun a => win0_2.index t a * main_call0_v2.ty.shape.size a) = fun _ => 0 := funext fun a => by fin_cases a <;> exact Nat.zero_mul _
  exact Memref.read_access_unit_zero (Elt F) main_call0_v2 hz' (fun a => by rw [congrFun hz' a]; simp) _

/-! ## What the one point writes back, and the arrays after the region -/

theorem flushed3_eq (c : Dev nD) (t : Fin cfg0.N) :
    (dats m 0 c).flushed 3 t = ((cfg0.win 3).blk t).view.read (Elt F)
      (bodyLower (V m c main_call0_v0) (V m c main_call0_v1) (V m c main_call0_v2)) := by
  show (cfg0.win 3).cut (grid0.coords t) ((dats m 0 c).after 3 t) = _
  rw [after0_3, iblk0, iblk1, iblk2]
  unfold out0_3
  rw [View.canon_unit_zero hz]
  simp only [View.ld_unit_zero (S := S64x128) hz]
  have hz' : (fun a => win0_3.index t a * main_call0_v3_0.ty.shape.size a) = fun _ => 0 :=
    funext fun a => by fin_cases a <;> exact Nat.zero_mul _
  exact (Memref.read_access_unit_zero (Elt F) main_call0_v3_0 hz' (fun a => by rw [congrFun hz' a]; simp) _).symm

theorem flushed4_eq (c : Dev nD) (t : Fin cfg0.N) :
    (dats m 0 c).flushed 4 t = ((cfg0.win 4).blk t).view.read (Elt F)
      (bodyUpper (V m c main_call0_v0) (V m c main_call0_v1)) := by
  show (cfg0.win 4).cut (grid0.coords t) ((dats m 0 c).after 4 t) = _
  rw [after0_4, iblk0, iblk1]
  unfold out0_4
  rw [View.canon_unit_zero hz]
  simp only [View.ld_unit_zero (S := S64x128) hz]
  have hz' : (fun a => win0_4.index t a * main_call0_v3_1.ty.shape.size a) = fun _ => 0 :=
    funext fun a => by fin_cases a <;> exact Nat.zero_mul _
  exact (Memref.read_access_unit_zero (Elt F) main_call0_v3_1 hz' (fun a => by rw [congrFun hz' a]; simp) _).symm

/-- The one block covers the array: after the region the first result array is the body's lower value. -/
theorem final3 (c : Dev nD) : (dats m 0 c).arrAt 3 cfg0.N
    = bodyLower (V m c main_call0_v0) (V m c main_call0_v1) (V m c main_call0_v2) :=
  (dats m 0 c).arrAt_eq_of_cover 3 _ (fun t _ => flushed3_eq m c t) fun i =>
    ⟨t0_0, flush0_3 t0_0, by
      show i ∈ ((View.whole main_call0_v3_0).slice (win0_3.rect t0_0)).set
      rw [View.set_slice_whole, Rect.mem_set_unit]
      intro a
      have h0 : (i 0 : Nat) < 64 := (i 0).isLt
      have h1 : (i 1 : Nat) < 128 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from Nat.zero_mul _, show win0_3.xsize (grid0.coords t0_0) 0 = 64 from rfl]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from Nat.zero_mul _, show win0_3.xsize (grid0.coords t0_0) 1 = 128 from rfl]; omega⟩

theorem final4 (c : Dev nD) : (dats m 0 c).arrAt 4 cfg0.N
    = bodyUpper (V m c main_call0_v0) (V m c main_call0_v1) :=
  (dats m 0 c).arrAt_eq_of_cover 4 _ (fun t _ => flushed4_eq m c t) fun i =>
    ⟨t0_0, flush0_4 t0_0, by
      show i ∈ ((View.whole main_call0_v3_1).slice (win0_4.rect t0_0)).set
      rw [View.set_slice_whole, Rect.mem_set_unit]
      intro a
      have h0 : (i 0 : Nat) < 64 := (i 0).isLt
      have h1 : (i 1 : Nat) < 128 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from Nat.zero_mul _, show win0_4.xsize (grid0.coords t0_0) 0 = 64 from rfl]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from Nat.zero_mul _, show win0_4.xsize (grid0.coords t0_0) 1 = 128 from rfl]; omega⟩

/-! ## The two reshapes after the region -/

theorem tail0 (c : Dev nD) : Pipeline.afterTail₀ cfgs (dats m) 0 (V0 m) [hostOps1] c main_v0_0
    = kLower (m ((c : Thread nD τ).loc main_arg0)) (m ((c : Thread nD τ).loc main_arg1)) (m ((c : Thread nD τ).loc main_arg2)) := by
  unfold Pipeline.afterTail₀
  show StableHlo.after hostOps1 _ (Proc.devRef .tc main_v0_0) = _
  after_results
  have e : Pipeline.withArrays spec0 c (V0 m c) (fun w => (dats m 0 c).arrAt w cfg0.N) (Proc.devRef .tc (Pipeline.arrRef spec0 3))
      = (dats m 0 c).arrAt 3 cfg0.N := Pipeline.withArrays_arr spec0 launch0.win.arr_inj c _ _ 3
  show shapeCast S1x8192x1 (Pipeline.withArrays spec0 c (V0 m c) (fun w => (dats m 0 c).arrAt w cfg0.N)
    (Proc.devRef .tc (Pipeline.arrRef spec0 3))) shapeCasts_S64x128_S1x8192x1 = _
  rw [e, final3, V_v0, V_v1, V_v2]
  rfl

theorem tail1 (c : Dev nD) : Pipeline.afterTail₀ cfgs (dats m) 0 (V0 m) [hostOps1] c main_v0_1
    = kUpper (m ((c : Thread nD τ).loc main_arg0)) (m ((c : Thread nD τ).loc main_arg1)) := by
  unfold Pipeline.afterTail₀
  show StableHlo.after hostOps1 _ (Proc.devRef .tc main_v0_1) = _
  after_results
  have e : Pipeline.withArrays spec0 c (V0 m c) (fun w => (dats m 0 c).arrAt w cfg0.N) (Proc.devRef .tc (Pipeline.arrRef spec0 4))
      = (dats m 0 c).arrAt 4 cfg0.N := Pipeline.withArrays_arr spec0 launch0.win.arr_inj c _ _ 4
  show shapeCast S1x8192x1 (Pipeline.withArrays spec0 c (V0 m c) (fun w => (dats m 0 c).arrAt w cfg0.N)
    (Proc.devRef .tc (Pipeline.arrRef spec0 4))) shapeCasts_S64x128_S1x8192x1 = _
  rw [e, final4, V_v0, V_v1]
  rfl

/-! ## The run, read -/

/-- Every weakly fair execution of the kernel's program terminates with its two results at the body's values of the
    reshaped arguments, reshaped back, and the arguments unchanged. -/
theorem run : θ_run defs (onTc (τ := τ) (main (F := F))) ⟨m, fun _ => 0, ρ⟩ fun r => ∀ c : Dev nD,
      r.2.mem ((c.tc : Thread nD τ).loc main_v0_0)
        = kLower (m ((c.tc : Thread nD τ).loc main_arg0)) (m ((c.tc : Thread nD τ).loc main_arg1)) (m ((c.tc : Thread nD τ).loc main_arg2))
      ∧ r.2.mem ((c.tc : Thread nD τ).loc main_v0_1)
        = kUpper (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefRun.lean ====
/-
  The reference program's run.

  The reference computes, for the three inputs lb, ub, alpha of shape [1, 8192, 1], the weights of a ReLU bound step
  entrywise, lays each weight vector on the diagonal of an 8192 x 8192 matrix, splits the matrix into its positive
  and negative parts and multiplies them with lb and ub. Its @main is a straight line of 107 host operations once
  the three outlined functions (the clip, the diagonal, the select inside the diagonal) are written in place of
  their calls. This module lists the operations and states the run: every weakly fair execution terminates with
  each buffer at the fold of the operations' results over the launch contents.
-/
import proofs.«172241_j89446988907158_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 107 operations, in order: the clip's six lines after the two constants, the entrywise weights and bias,
    then for each of the two weight vectors the diagonal's thirteen lines, and the four sign-split products. -/
abbrev ops : List (HloOp τ sig (Elt F)) :=
  [ nullary main_cst (constant S_ .f32 0x00000000#32),
    nullary main_cst_0 (constant S_ .f32 0x3F800000#32),
    TRef.unary (.of main_cst) main_call0.v0 id,
    TRef.unary main_call0.v0 main_call0.v1 (broadcastInDim S1x8192x1 ![] bcast_S_S1x8192x1),
    TRef.binary main_call0.v1 (.of main_arg2) main_call0.v2 maximumf,
    TRef.unary (.of main_cst_0) main_call0.v3 id,
    TRef.unary main_call0.v3 main_call0.v4 (broadcastInDim S1x8192x1 ![] bcast_S_S1x8192x1),
    TRef.binary main_call0.v4 main_call0.v2 main_call0.v5 minimumf,
    binary main_v0 main_arg2 main_v1 subf,
    binary main_arg2 main_v1 main_v2 addf,
    binary main_arg1 main_arg0 main_v3 subf,
    binary main_arg1 main_v3 main_v4 Host.divf,
    nullary main_cst_1 (constant S_ .f32 0x00000000#32),
    unary main_cst_1 main_v5 (broadcastInDim S1x8192x1 ![] bcast_S_S1x8192x1),
    binary main_arg0 main_v5 main_v6 (cmpf .oge),
    nullary main_cst_2 (constant S_ .f32 0x00000000#32),
    unary main_cst_2 main_v7 (broadcastInDim S1x8192x1 ![] bcast_S_S1x8192x1),
    binary main_arg1 main_v7 main_v8 (cmpf .oge),
    binary main_v6 main_v8 main_v9 andi,
    unary main_v9 main_v10 (uitofp .f32),
    nullary main_cst_3 (constant S_ .f32 0x00000000#32),
    unary main_cst_3 main_v11 (broadcastInDim S1x8192x1 ![] bcast_S_S1x8192x1),
    binary main_arg0 main_v11 main_v12 (cmpf .olt),
    nullary main_cst_4 (constant S_ .f32 0x00000000#32),
    unary main_cst_4 main_v13 (broadcastInDim S1x8192x1 ![] bcast_S_S1x8192x1),
    binary main_arg1 main_v13 main_v14 (cmpf .oge),
    binary main_v12 main_v14 main_v15 andi,
    unary main_v15 main_v16 (uitofp .f32),
    nullary main_cst_5 (constant S_ .f32 0x00000000#32),
    unary main_cst_5 main_v17 (broadcastInDim S1x8192x1 ![] bcast_S_S1x8192x1),
    binary main_arg0 main_v17 main_v18 (cmpf .olt),
    nullary main_cst_6 (constant S_ .f32 0x00000000#32),
    unary main_cst_6 main_v19 (broadcastInDim S1x8192x1 ![] bcast_S_S1x8192x1),
    binary main_arg1 main_v19 main_v20 (cmpf .ogt),
    binary main_v18 main_v20 main_v21 andi,
    unary main_v21 main_v22 (uitofp .f32),
    binary main_v16 main_v2 main_v23 mulf,
    binary main_v10 main_v23 main_v24 addf,
    binary main_v16 main_v4 main_v25 mulf,
    binary main_v10 main_v25 main_v26 addf,
    nullary main_cst_7 (constant S_ .f32 0x00000000#32),
    unary main_cst_7 main_v27 (broadcastInDim S1x8192x1 ![] bcast_S_S1x8192x1),
    unary main_v4 main_v28 Host.negf,
    binary main_v28 main_arg0 main_v29 mulf,
    binary main_v22 main_v29 main_v30 mulf,
    reshape main_v24 main_v31 rfl shapeCasts_S1x8192x1_S8192,
    TRef.nullary main_call1.cst (constant S_ .f32 0x00000000#32),
    TRef.binary (.of main_v31) main_call1.cst main_call1.v0 (fun x v => pad S8192 ![0] ![0] ![0] x v pads_S8192_S8192_000 h_S_),
    TRef.nullary main_call1.v1 (iotaInDim S8192x8192 32 0),
    TRef.nullary main_call1.v2 (iotaInDim S8192x8192 32 1),
    TRef.nullary main_call1.c (constantI S_ 32 0#32),
    TRef.unary main_call1.c main_call1.v3 (broadcastInDim S8192x8192 ![] bcast_S_S8192x8192),
    TRef.binary main_call1.v1 main_call1.v3 main_call1.v4 addi,
    TRef.binary main_call1.v4 main_call1.v2 main_call1.v5 (cmpi .eq),
    TRef.unary main_call1.v0 main_call1.v6 (broadcastInDim S8192x1 ![0] bcast_S8192_S8192x1_0),
    TRef.nullary main_call1.cst_0 (constant S_ .f32 0x00000000#32),
    TRef.unary main_call1.v6 main_call1.call0.v0 (broadcastInDim S8192x8192 ![0, 1] bcast_S8192x1_S8192x8192_0_1),
    TRef.unary main_call1.cst_0 main_call1.call0.v1 (broadcastInDim S8192x8192 ![] bcast_S_S8192x8192),
    TRef.ternary main_call1.v5 main_call1.call0.v0 main_call1.call0.v1 main_call1.call0.v2 select,
    unary main_v32 main_v33 (broadcastInDim S1x8192x8192 ![1, 2] bcast_S8192x8192_S1x8192x8192_1_2),
    reshape main_v26 main_v34 rfl shapeCasts_S1x8192x1_S8192,
    TRef.nullary main_call2.cst (constant S_ .f32 0x00000000#32),
    TRef.binary (.of main_v34) main_call2.cst main_call2.v0 (fun x v => pad S8192 ![0] ![0] ![0] x v pads_S8192_S8192_000 h_S_),
    TRef.nullary main_call2.v1 (iotaInDim S8192x8192 32 0),
    TRef.nullary main_call2.v2 (iotaInDim S8192x8192 32 1),
    TRef.nullary main_call2.c (constantI S_ 32 0#32),
    TRef.unary main_call2.c main_call2.v3 (broadcastInDim S8192x8192 ![] bcast_S_S8192x8192),
    TRef.binary main_call2.v1 main_call2.v3 main_call2.v4 addi,
    TRef.binary main_call2.v4 main_call2.v2 main_call2.v5 (cmpi .eq),
    TRef.unary main_call2.v0 main_call2.v6 (broadcastInDim S8192x1 ![0] bcast_S8192_S8192x1_0),
    TRef.nullary main_call2.cst_0 (constant S_ .f32 0x00000000#32),
    TRef.unary main_call2.v6 main_call2.call0.v0 (broadcastInDim S8192x8192 ![0, 1] bcast_S8192x1_S8192x8192_0_1),
    TRef.unary main_call2.cst_0 main_call2.call0.v1 (broadcastInDim S8192x8192 ![] bcast_S_S8192x8192),
    TRef.ternary main_call2.v5 main_call2.call0.v0 main_call2.call0.v1 main_call2.call0.v2 select,
    unary main_v35 main_v36 (broadcastInDim S1x8192x8192 ![1, 2] bcast_S8192x8192_S1x8192x8192_1_2),
    nullary main_cst_8 (constant S_ .f32 0x00000000#32),
    unary main_cst_8 main_v37 (broadcastInDim S1x8192x8192 ![] bcast_S_S1x8192x8192),
    binary main_v33 main_v37 main_v38 maximumf,
    reshape main_v38 main_v39 rfl shapeCasts_S1x8192x8192_S8192x8192,
    reshape main_arg0 main_v40 rfl shapeCasts_S1x8192x1_S8192x1,
    binary main_v39 main_v40 main_v41 (fun l r => Host.dotGeneral dot_S8192x8192_S8192x1_S8192x1_1_0_0_1_n_n none l r),
    unary main_v41 main_v42 (broadcastInDim S1x8192x1 ![1, 2] bcast_S8192x1_S1x8192x1_1_2),
    nullary main_cst_9 (constant S_ .f32 0x00000000#32),
    unary main_cst_9 main_v43 (broadcastInDim S1x8192x8192 ![] bcast_S_S1x8192x8192),
    binary main_v33 main_v43 main_v44 minimumf,
    reshape main_v44 main_v45 rfl shapeCasts_S1x8192x8192_S8192x8192,
    reshape main_arg1 main_v46 rfl shapeCasts_S1x8192x1_S8192x1,
    binary main_v45 main_v46 main_v47 (fun l r => Host.dotGeneral dot_S8192x8192_S8192x1_S8192x1_1_0_0_1_n_n none l r),
    unary main_v47 main_v48 (broadcastInDim S1x8192x1 ![1, 2] bcast_S8192x1_S1x8192x1_1_2),
    binary main_v42 main_v48 main_v49 addf,
    binary main_v49 main_v27 main_v50 addf,
    nullary main_cst_10 (constant S_ .f32 0x00000000#32),
    unary main_cst_10 main_v51 (broadcastInDim S1x8192x8192 ![] bcast_S_S1x8192x8192),
    binary main_v36 main_v51 main_v52 maximumf,
    reshape main_v52 main_v53 rfl shapeCasts_S1x8192x8192_S8192x8192,
    reshape main_arg1 main_v54 rfl shapeCasts_S1x8192x1_S8192x1,
    binary main_v53 main_v54 main_v55 (fun l r => Host.dotGeneral dot_S8192x8192_S8192x1_S8192x1_1_0_0_1_n_n none l r),
    unary main_v55 main_v56 (broadcastInDim S1x8192x1 ![1, 2] bcast_S8192x1_S1x8192x1_1_2),
    nullary main_cst_11 (constant S_ .f32 0x00000000#32),
    unary main_cst_11 main_v57 (broadcastInDim S1x8192x8192 ![] bcast_S_S1x8192x8192),
    binary main_v36 main_v57 main_v58 minimumf,
    reshape main_v58 main_v59 rfl shapeCasts_S1x8192x8192_S8192x8192,
    reshape main_arg0 main_v60 rfl shapeCasts_S1x8192x1_S8192x1,
    binary main_v59 main_v60 main_v61 (fun l r => Host.dotGeneral dot_S8192x8192_S8192x1_S8192x1_1_0_0_1_n_n none l r),
    unary main_v61 main_v62 (broadcastInDim S1x8192x1 ![1, 2] bcast_S8192x1_S1x8192x1_1_2),
    binary main_v56 main_v62 main_v63 addf,
    binary main_v63 main_v30 main_v64 addf ]

set_option maxRecDepth 8192 in
set_option maxHeartbeats 4000000 in
/-- @main is that straight line: its two windows in order, the outlined functions' lines at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation reads and writes TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., binary_bufs_sub .., unary_bufs_sub ..,
    binary_bufs_sub .., binary_bufs_sub .., binary_bufs_sub .., binary_bufs_sub .., nullary_bufs_sub .., unary_bufs_sub ..,
    unary_bufs_sub .., binary_bufs_sub .., binary_bufs_sub .., reshape_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., unary_bufs_sub .., reshape_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., unary_bufs_sub ..,
    nullary_bufs_sub .., unary_bufs_sub .., binary_bufs_sub .., reshape_bufs_sub .., reshape_bufs_sub .., binary_bufs_sub ..,
    unary_bufs_sub .., nullary_bufs_sub .., unary_bufs_sub .., binary_bufs_sub .., reshape_bufs_sub .., reshape_bufs_sub ..,
    binary_bufs_sub .., unary_bufs_sub .., binary_bufs_sub .., binary_bufs_sub ..,
    nullary_bufs_sub .., unary_bufs_sub .., binary_bufs_sub .., reshape_bufs_sub .., reshape_bufs_sub .., binary_bufs_sub ..,
    unary_bufs_sub .., nullary_bufs_sub .., unary_bufs_sub .., binary_bufs_sub .., reshape_bufs_sub .., reshape_bufs_sub ..,
    binary_bufs_sub .., unary_bufs_sub .., binary_bufs_sub .., binary_bufs_sub ..⟩

/-- On every device, from any memory with zero counters: every weakly fair execution of @main terminates, and every
    final state has each buffer at the fold of the operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefStages.lean ====
/-
  The reference's computation as named stages.

  Entrywise on [1, 8192, 1]: the three indicators, the clip written as alpha + (clip alpha − alpha), the chord's
  slope ub / (ub − lb), the two weight vectors and the upper bias.  Then, for a weight vector w: the 8192 x 8192
  matrix with w on its diagonal and zero elsewhere (a select on "row number = column number"), its positive and
  negative parts, and their products with the column of lb or ub.  The two results are
      lower = pos(diag w_lower) · lb + neg(diag w_lower) · ub + 0,
      upper = pos(diag w_upper) · ub + neg(diag w_upper) · lb + bias.
  Each definition is one host operation, or a few, of the program's text, for any float instance.
-/
import proofs.«172241_j89446988907158_2_alg».proof.Proof.Gen.ReferenceIdeal

noncomputable section

namespace Cert.ReferenceIdeal.Stages

open Cert.ReferenceIdeal Cert.ReferenceIdeal.Gen Idealize.ShloMosaic

variable {F : FTy → Type} [FloatOps F]

/-- The zero word at every entry of [1, 8192, 1]. -/
def zeros3 : FVec F S1x8192x1 .f32 :=
  broadcastInDim S1x8192x1 ![] bcast_S_S1x8192x1 (constant S_ .f32 0x00000000#32)

/-- min 1 (max 0 alpha), entrywise. -/
def clip (al : FVec F S1x8192x1 .f32) : FVec F S1x8192x1 .f32 :=
  minimumf (broadcastInDim S1x8192x1 ![] bcast_S_S1x8192x1 (id (constant S_ .f32 0x3F800000#32)))
    (maximumf (broadcastInDim S1x8192x1 ![] bcast_S_S1x8192x1 (id (constant S_ .f32 0x00000000#32))) al)

/-- alpha + (clip alpha − alpha). -/
def steClip (al : FVec F S1x8192x1 .f32) : FVec F S1x8192x1 .f32 := addf al (subf (clip al) al)

/-- ub / (ub − lb). -/
def slope (lb ub : FVec F S1x8192x1 .f32) : FVec F S1x8192x1 .f32 := Host.divf ub (subf ub lb)

/-- [lb ≥ 0 and ub ≥ 0], [lb < 0 and ub ≥ 0], [lb < 0 and ub > 0] as numbers. -/
def posInd (lb ub : FVec F S1x8192x1 .f32) : FVec F S1x8192x1 .f32 :=
  uitofp .f32 (andi (cmpf .oge lb zeros3) (cmpf .oge ub zeros3))
def crossInd (lb ub : FVec F S1x8192x1 .f32) : FVec F S1x8192x1 .f32 :=
  uitofp .f32 (andi (cmpf .olt lb zeros3) (cmpf .oge ub zeros3))
def strictInd (lb ub : FVec F S1x8192x1 .f32) : FVec F S1x8192x1 .f32 :=
  uitofp .f32 (andi (cmpf .olt lb zeros3) (cmpf .ogt ub zeros3))

/-- The weight vectors and the upper bias. -/
def wLower (lb ub al : FVec F S1x8192x1 .f32) : FVec F S1x8192x1 .f32 :=
  addf (posInd lb ub) (mulf (crossInd lb ub) (steClip al))
def wUpper (lb ub : FVec F S1x8192x1 .f32) : FVec F S1x8192x1 .f32 :=
  addf (posInd lb ub) (mulf (crossInd lb ub) (slope lb ub))
def biasUpper (lb ub : FVec F S1x8192x1 .f32) : FVec F S1x8192x1 .f32 :=
  mulf (strictInd lb ub) (mulf (Host.negf (slope lb ub)) lb)

/-- "Row number + 0 = column number" on the 8192 x 8192 grid. -/
def onDiag : IVec S8192x8192 1 :=
  cmpi .eq (addi (iotaInDim S8192x8192 32 0) (broadcastInDim S8192x8192 ![] bcast_S_S8192x8192 (constantI S_ 32 0#32)))
    (iotaInDim S8192x8192 32 1)

/-- The matrix with the vector on its diagonal: each row filled with its own entry, kept on the diagonal, zero off it. -/
def diagOf (w : FVec F S1x8192x1 .f32) : FVec F S8192x8192 .f32 :=
  select onDiag
    (broadcastInDim S8192x8192 ![0, 1] bcast_S8192x1_S8192x8192_0_1
      (broadcastInDim S8192x1 ![0] bcast_S8192_S8192x1_0
        (pad S8192 ![0] ![0] ![0] (shapeCast S8192 w shapeCasts_S1x8192x1_S8192) (constant S_ .f32 0x00000000#32)
          pads_S8192_S8192_000 h_S_)))
    (broadcastInDim S8192x8192 ![] bcast_S_S8192x8192 (constant S_ .f32 0x00000000#32))

/-- A matrix under a leading unit axis. -/
def lift3 (W : FVec F S8192x8192 .f32) : FVec F S1x8192x8192 .f32 :=
  broadcastInDim S1x8192x8192 ![1, 2] bcast_S8192x8192_S1x8192x8192_1_2 W

def zerosBig : FVec F S1x8192x8192 .f32 :=
  broadcastInDim S1x8192x8192 ![] bcast_S_S1x8192x8192 (constant S_ .f32 0x00000000#32)

/-- The positive part max(W, 0) and the negative part min(W, 0), back as matrices. -/
def posPart (W3 : FVec F S1x8192x8192 .f32) : FVec F S8192x8192 .f32 :=
  shapeCast S8192x8192 (maximumf W3 zerosBig) shapeCasts_S1x8192x8192_S8192x8192
def negPart (W3 : FVec F S1x8192x8192 .f32) : FVec F S8192x8192 .f32 :=
  shapeCast S8192x8192 (minimumf W3 zerosBig) shapeCasts_S1x8192x8192_S8192x8192

/-- A matrix times the column of a [1, 8192, 1] array, back as [1, 8192, 1]. -/
def timesCol (A : FVec F S8192x8192 .f32) (x : FVec F S1x8192x1 .f32) : FVec F S1x8192x1 .f32 :=
  broadcastInDim S1x8192x1 ![1, 2] bcast_S8192x1_S1x8192x1_1_2
    (Host.dotGeneral dot_S8192x8192_S8192x1_S8192x1_1_0_0_1_n_n none A (shapeCast S8192x1 x shapeCasts_S1x8192x1_S8192x1))

/-- The two results. -/
def refLower (lb ub al : FVec F S1x8192x1 .f32) : FVec F S1x8192x1 .f32 :=
  addf (addf (timesCol (posPart (lift3 (diagOf (wLower lb ub al)))) lb)
    (timesCol (negPart (lift3 (diagOf (wLower lb ub al)))) ub)) zeros3
def refUpper (lb ub : FVec F S1x8192x1 .f32) : FVec F S1x8192x1 .f32 :=
  addf (addf (timesCol (posPart (lift3 (diagOf (wUpper lb ub)))) ub)
    (timesCol (negPart (lift3 (diagOf (wUpper lb ub)))) lb)) (biasUpper lb ub)

end Cert.ReferenceIdeal.Stages

end
-- ==== Proof.RefLowerValue.lean ====
/-
  The fold of the reference's operations, read at the first result: it is the lower bound's stages composed, of the
  three arguments' contents (each operation's result read where a later one consumes it).
-/
import proofs.«172241_j89446988907158_2_alg».proof.Proof.RefRun
import proofs.«172241_j89446988907158_2_alg».proof.Proof.RefStages

noncomputable section

namespace Cert.ReferenceIdeal.HostRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

attribute [local irreducible] pad in
set_option maxRecDepth 8192 in
set_option maxHeartbeats 40000000 in
theorem lower_eq (V : Valuation τ sig (Elt F)) :
    after ops V (main_v50 : DevRef τ sig)
      = refLower (V (main_arg0 : DevRef τ sig)) (V (main_arg1 : DevRef τ sig)) (V (main_arg2 : DevRef τ sig)) := by
  after_results_simp <;> rfl

end Cert.ReferenceIdeal.HostRun

end
-- ==== Proof.RefUpperValue.lean ====
/-
  The fold of the reference's operations, read at the second result: it is the upper bound's stages composed, of the
  first two arguments' contents.
-/
import proofs.«172241_j89446988907158_2_alg».proof.Proof.RefRun
import proofs.«172241_j89446988907158_2_alg».proof.Proof.RefStages

noncomputable section

namespace Cert.ReferenceIdeal.HostRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

attribute [local irreducible] pad in
set_option maxRecDepth 8192 in
set_option maxHeartbeats 40000000 in
theorem upper_eq (V : Valuation τ sig (Elt F)) :
    after ops V (main_v64 : DevRef τ sig)
      = refUpper (V (main_arg0 : DevRef τ sig)) (V (main_arg1 : DevRef τ sig)) := by
  after_results_simp <;> rfl

end Cert.ReferenceIdeal.HostRun

end
-- ==== Proof.RefResults.lean ====
/-
  The reference's two results after its run, as the stages of the arguments' launch contents.
-/
import proofs.«172241_j89446988907158_2_alg».proof.Proof.RefLowerValue
import proofs.«172241_j89446988907158_2_alg».proof.Proof.RefUpperValue

noncomputable section

namespace Cert.ReferenceIdeal.HostRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

theorem lower_launch (m : (ℓ : Loc nD τ sig) → Buf (Elt F) ℓ) (c : Dev nD) :
    after ops (launchContents m c) (main_v50 : DevRef τ sig)
      = refLower (m ((c.tc : Thread nD τ).loc main_arg0)) (m ((c.tc : Thread nD τ).loc main_arg1)) (m ((c.tc : Thread nD τ).loc main_arg2)) :=
  lower_eq (launchContents m c)

theorem upper_launch (m : (ℓ : Loc nD τ sig) → Buf (Elt F) ℓ) (c : Dev nD) :
    after ops (launchContents m c) (main_v64 : DevRef τ sig)
      = refUpper (m ((c.tc : Thread nD τ).loc main_arg0)) (m ((c.tc : Thread nD τ).loc main_arg1)) :=
  upper_eq (launchContents m c)

end Cert.ReferenceIdeal.HostRun

end
-- ==== Proof.RefArgsValue.lean ====
/-
  No operation of the reference writes an argument: the fold, read at an argument, is its launch contents.
-/
import proofs.«172241_j89446988907158_2_alg».proof.Proof.RefRun
import proofs.«172241_j89446988907158_2_alg».proof.Proof.RefStages

noncomputable section

namespace Cert.ReferenceIdeal.HostRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

set_option maxRecDepth 8192 in
set_option maxHeartbeats 40000000 in
theorem arg0_eq (V : Valuation τ sig (Elt F)) : after ops V (main_arg0 : DevRef τ sig) = V (main_arg0 : DevRef τ sig) := by
  after_results_simp

set_option maxRecDepth 8192 in
set_option maxHeartbeats 40000000 in
theorem arg1_eq (V : Valuation τ sig (Elt F)) : after ops V (main_arg1 : DevRef τ sig) = V (main_arg1 : DevRef τ sig) := by
  after_results_simp

set_option maxRecDepth 8192 in
set_option maxHeartbeats 40000000 in
theorem arg2_eq (V : Valuation τ sig (Elt F)) : after ops V (main_arg2 : DevRef τ sig) = V (main_arg2 : DevRef τ sig) := by
  after_results_simp

end Cert.ReferenceIdeal.HostRun

end
-- ==== Proof.FiniteInputs.lean ====
/-
  The precondition read back: every entry of the three arguments is a real number.

  The precondition is the conjunction of three "all entries satisfy |x| < +inf".  Each "all" is a reduction by "and"
  from 1 that came out 1, so every entry's comparison is 1; and on the extended reals max x (−x) < ⊤ excludes exactly
  x = ⊤ and x = ⊥.
-/
import proofs.«172241_j89446988907158_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun _ _ => funext fun d => d.elim0⟩

/-- The word 0x7F800000 is +inf. -/
theorem inf_word : Ideal.ofBits .f32 0x7F800000#32 = ⊤ := by simp [Ideal.ofBits, Ideal.ieee]

/-- |x| < +inf, as the comparison's bit, says x is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd hlt (by simp)
  | coe r => exact ⟨r, rfl⟩
  | top => exact absurd hlt (by simp)

/-- Under the precondition every entry of lb, ub and alpha is real. -/
theorem all_real [Cert.Pre_finite_inputs.Facts] (x0 x1 x2 : FVec Ideal S1x8192x1 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.mp h0
  obtain ⟨h0', h1'⟩ := IntOp.andi_eq_one.mp h01
  exact ⟨fun i => real_of_abs_lt _ (Host.reduce_andi_all _ _ _ _ ValueIdx.ix0 h0' i),
    fun i => real_of_abs_lt _ (Host.reduce_andi_all _ _ _ _ ValueIdx.ix0 h1' i),
    fun i => real_of_abs_lt _ (Host.reduce_andi_all _ _ _ _ ValueIdx.ix0 h2 i)⟩

end Cert.FiniteInputs

end
-- ==== Proof.EntryLaw.lean ====
/-
  One entry of a ReLU bound step, on the extended reals (program-independent; imports only the library).

  For one entry with previous bounds x (lower), y (upper) and slope parameter z the step forms three 0/1 indicators
      pos    = [0 ≤ x and 0 ≤ y]     (the unit is active),
      cross  = [x < 0 and 0 ≤ y]     (the unit crosses zero),
      strict = [x < 0 and 0 < y],
  the lower weight  pos + cross · clip(z), with clip(z) = min 1 (max 0 z),
  the upper weight  pos + cross · s       with the chord's slope s = y / (y − x),
  and the upper bias strict · (−s · x).  The new bounds are  w_lower · x  and  w_upper · y + bias.

  Two spellings are compared here.  The first guards the slope's divisor (it divides by 1 where y − x = 0),
  writes −s as 0 − s, and multiplies by the weight directly.  The second divides by y − x unguarded, writes the
  clip as z + (clip z − z), and multiplies through the positive and negative parts of the weight:
  max w 0 · x + min w 0 · y.  They agree at real entries:
    • z + (clip z − z) = clip z needs z real (the cancellation fails at an infinity);
    • where y − x = 0 the entry cannot cross zero, so cross = strict = 0 and the slope — whatever the quotient by
      zero is read as — is multiplied by 0, and 0 · t = 0 for every extended real t;
    • both weights are ≥ 0 (a crossing entry has y ≥ 0 and y − x > 0, so s ≥ 0), hence max w 0 = w, min w 0 = 0.
-/
import Idealize.ShloMosaic.PureOps.Ideal
import Idealize.ShloMosaic.PureOps.Ideal.Laws

noncomputable section

namespace Cert.EntryLaw

open Idealize.ShloMosaic

/-- The word of 0.0 and the word of 1.0, read as extended reals. -/
def zeroW : EReal := Ideal.ofBits .f32 0x00000000#32
def oneW : EReal := Ideal.ofBits .f32 0x3F800000#32

theorem zeroW_eq : zeroW = 0 := Ideal.ofBits_zero_f32

theorem oneW_eq : oneW = 1 := by
  unfold oneW
  simp [Ideal.ofBits, Ideal.ieee]
  rw [← EReal.coe_mul, ← EReal.coe_one]
  exact congrArg _ (by norm_num)

/-! ## Indicators -/

/-- A one-bit word widened to 32 bits and read signed. -/
def indK (b : BitVec 1) : EReal := (((b.setWidth 32).toInt : ℝ) : EReal)
/-- A one-bit word read unsigned. -/
def indH (b : BitVec 1) : EReal := ((b.toNat : ℝ) : EReal)

theorem indK_eq (b : BitVec 1) : indK b = indH b := by
  rcases BitVec.eq_zero_or_eq_one b with h | h <;> subst h <;> simp [indK, indH]

/-- The conjunction of two decided comparisons, read as a number, is the indicator of both holding. -/
theorem indH_and (P Q : Prop) [Decidable P] [Decidable Q] :
    indH (IntOp.andi (BitVec.ofBool (decide P)) (BitVec.ofBool (decide Q))) = if P ∧ Q then 1 else 0 := by
  by_cases hP : P <;> by_cases hQ : Q <;> simp [indH, IntOp.andi, hP, hQ]

/-- [0 ≤ x and 0 ≤ y], [x < 0 and 0 ≤ y], [x < 0 and 0 < y] as the programs compute them. -/
def posB (x y : EReal) : BitVec 1 := IntOp.andi (Ideal.cmp .oge x zeroW) (Ideal.cmp .oge y zeroW)
def crossB (x y : EReal) : BitVec 1 := IntOp.andi (Ideal.cmp .olt x zeroW) (Ideal.cmp .oge y zeroW)
def strictB (x y : EReal) : BitVec 1 := IntOp.andi (Ideal.cmp .olt x zeroW) (Ideal.cmp .ogt y zeroW)

theorem pos_eq (x y : EReal) : indH (posB x y) = if 0 ≤ x ∧ 0 ≤ y then 1 else 0 := by
  unfold posB; rw [zeroW_eq]; exact indH_and _ _
theorem cross_eq (x y : EReal) : indH (crossB x y) = if x < 0 ∧ 0 ≤ y then 1 else 0 := by
  unfold crossB; rw [zeroW_eq]; exact indH_and _ _
theorem strict_eq (x y : EReal) : indH (strictB x y) = if x < 0 ∧ 0 < y then 1 else 0 := by
  unfold strictB; rw [zeroW_eq]; exact indH_and _ _

theorem ite_nonneg (P : Prop) [Decidable P] : (0 : EReal) ≤ if P then 1 else 0 := by
  split_ifs <;> simp

theorem ite_mul_nonneg (P : Prop) [Decidable P] {t : EReal} (ht : 0 ≤ t) : 0 ≤ (if P then (1 : EReal) else 0) * t := by
  split_ifs <;> simp [ht]

/-! ## The two spellings -/

/-- min 1 (max 0 z). -/
def clip (z : EReal) : EReal := min oneW (max zeroW z)

/-- The guarded slope: y over (1 where y − x = 0, else y − x). -/
def slopeK (x y : EReal) : EReal := Ideal.div y (Scalar.select (Ideal.cmp .oeq (y - x) zeroW) oneW (y - x))
/-- The first spelling's lower and upper bound. -/
def lowerK (x y z : EReal) : EReal := (indK (posB x y) + indK (crossB x y) * clip z) * x
def upperK (x y : EReal) : EReal :=
  (indK (posB x y) + indK (crossB x y) * slopeK x y) * y + indK (strictB x y) * ((zeroW - slopeK x y) * x)

/-- The unguarded slope. -/
def slopeH (x y : EReal) : EReal := Ideal.div y (y - x)
/-- The clip written as z + (clip z − z). -/
def steClip (z : EReal) : EReal := z + (clip z - z)
def wLowerH (x y z : EReal) : EReal := indH (posB x y) + indH (crossB x y) * steClip z
def wUpperH (x y : EReal) : EReal := indH (posB x y) + indH (crossB x y) * slopeH x y
def biasH (x y : EReal) : EReal := indH (strictB x y) * (-(slopeH x y) * x)
/-- A weight applied through its positive and negative parts. -/
def split (w p q : EReal) : EReal := max w zeroW * p + min w zeroW * q
/-- The second spelling's lower and upper bound. -/
def lowerH (x y z : EReal) : EReal := split (wLowerH x y z) x y + zeroW
def upperH (x y : EReal) : EReal := split (wUpperH x y) y x + biasH x y

/-! ## The law -/

/-- A weight ≥ 0 applied through its parts is the weight applied: max w 0 = w, min w 0 = 0, and 0 · q = 0. -/
theorem split_of_nonneg {w : EReal} (hw : 0 ≤ w) (p q : EReal) : split w p q = w * p := by
  unfold split
  rw [zeroW_eq, max_eq_left hw, min_eq_right hw, zero_mul, add_zero]

theorem clip_coe (a : ℝ) : clip (a : EReal) = ((min 1 (max 0 a) : ℝ) : EReal) := by
  unfold clip
  rw [oneW_eq, zeroW_eq, ← EReal.coe_zero, ← EReal.coe_one,
    ← EReal.coe_strictMono.monotone.map_max, ← EReal.coe_strictMono.monotone.map_min]

theorem clip_nonneg (a : ℝ) : 0 ≤ clip (a : EReal) := by
  rw [clip_coe]
  exact EReal.coe_nonneg.mpr (le_min zero_le_one (le_max_left _ _))

/-- At a real z the cancellation holds: z + (clip z − z) = clip z. -/
theorem steClip_coe (a : ℝ) : steClip (a : EReal) = clip (a : EReal) := by
  unfold steClip
  rw [clip_coe, ← EReal.coe_sub, ← EReal.coe_add]
  exact congrArg _ (by ring)

theorem lower_law (l u a : ℝ) : lowerK (l : EReal) u a = lowerH (l : EReal) u a := by
  have hw : 0 ≤ wLowerH (l : EReal) u a := by
    unfold wLowerH
    rw [pos_eq, cross_eq, steClip_coe]
    exact add_nonneg (ite_nonneg _) (ite_mul_nonneg _ (clip_nonneg a))
  unfold lowerH
  rw [split_of_nonneg hw, zeroW_eq, add_zero]
  unfold lowerK wLowerH
  rw [indK_eq, indK_eq, steClip_coe]

/-- Where y − x ≠ 0 the guard is not taken: the two slopes are one quotient. -/
theorem slopeK_of_ne {l u : ℝ} (h : u - l ≠ 0) : slopeK (l : EReal) u = slopeH (l : EReal) u := by
  unfold slopeK slopeH
  have hne : ((u : EReal) - (l : EReal)) ≠ 0 := by
    rw [← EReal.coe_sub]; exact EReal.coe_ne_zero.mpr h
  have hc : Ideal.cmp .oeq ((u : EReal) - (l : EReal)) zeroW = 0#1 := by
    rw [zeroW_eq]
    show BitVec.ofBool (decide (((u : EReal) - (l : EReal)) = 0)) = 0#1
    rw [decide_eq_false hne]; rfl
  rw [hc]
  rfl

/-- Where y − x = 0 the entry does not cross zero. -/
theorem cross_of_eq {l u : ℝ} (h : u - l = 0) : indH (crossB (l : EReal) u) = 0 := by
  rw [cross_eq, if_neg]
  rintro ⟨h1, h2⟩
  have hl : l < 0 := by exact_mod_cast h1
  have hu : 0 ≤ u := by exact_mod_cast h2
  linarith

theorem strict_of_eq {l u : ℝ} (h : u - l = 0) : indH (strictB (l : EReal) u) = 0 := by
  rw [strict_eq, if_neg]
  rintro ⟨h1, h2⟩
  have hl : l < 0 := by exact_mod_cast h1
  have hu : 0 < u := by exact_mod_cast h2
  linarith

/-- A crossing entry's slope is a nonnegative real: y ≥ 0 over y − x > 0. -/
theorem slopeH_nonneg {l u : ℝ} (hl : l < 0) (hu : 0 ≤ u) : 0 ≤ slopeH (l : EReal) u := by
  unfold slopeH
  have hd : u - l ≠ 0 := by linarith
  rw [← EReal.coe_sub, Ideal.div_coe hd, ← EReal.coe_mul]
  exact EReal.coe_nonneg.mpr (mul_nonneg hu (by rw [one_div]; exact inv_nonneg.mpr (by linarith)))

theorem wUpperH_nonneg (l u : ℝ) : 0 ≤ wUpperH (l : EReal) u := by
  unfold wUpperH
  rw [pos_eq, cross_eq]
  refine add_nonneg (ite_nonneg _) ?_
  by_cases hc : (l : EReal) < 0 ∧ (0 : EReal) ≤ u
  · rw [if_pos hc, one_mul]
    exact slopeH_nonneg (by exact_mod_cast hc.1) (by exact_mod_cast hc.2)
  · rw [if_neg hc, zero_mul]

theorem upper_law (l u : ℝ) : upperK (l : EReal) u = upperH (l : EReal) u := by
  have hcs : indH (crossB (l : EReal) u) * slopeK (l : EReal) u = indH (crossB (l : EReal) u) * slopeH (l : EReal) u := by
    by_cases hd : u - l = 0
    · rw [cross_of_eq hd, zero_mul, zero_mul]
    · rw [slopeK_of_ne hd]
  have hss : indH (strictB (l : EReal) u) * ((zeroW - slopeK (l : EReal) u) * l)
      = indH (strictB (l : EReal) u) * (-(slopeH (l : EReal) u) * l) := by
    by_cases hd : u - l = 0
    · rw [strict_of_eq hd, zero_mul, zero_mul]
    · rw [slopeK_of_ne hd, zeroW_eq, zero_sub]
  unfold upperH
  rw [split_of_nonneg (wUpperH_nonneg l u)]
  unfold upperK wUpperH biasH
  rw [indK_eq, indK_eq, indK_eq, hcs, hss]

end Cert.EntryLaw

end
-- ==== Proof.KernelRead.lean ====
/-
  The kernel program's results read at an entry.

  The body is entrywise, so reshaping the arguments to [64, 128], applying it, and reshaping back is the body's
  entrywise function applied at each entry of [1, 8192, 1]: the two reshapes are inverse re-indexings.  At an entry with
  values x = lb, y = ub, z = alpha the body computes the entry law's first spelling (guarded divisor, −s as 0 − s).
-/
import proofs.«172241_j89446988907158_2_alg».proof.Proof.KernelStages
import proofs.«172241_j89446988907158_2_alg».proof.Proof.EntryLaw
import Idealize.ShloMosaic.Lib.Pipeline.Value
import Idealize.ShloMosaic.Lib.ValueIdx

noncomputable section

namespace Cert.KernelIdeal.Read

open Cert.KernelIdeal Cert.KernelIdeal.Gen Cert.KernelIdeal.Hand Idealize.ShloMosaic Cert.EntryLaw

/-- The body's lower value at an entry of the block. -/
theorem bodyLower_apply (x0 x1 x2 : Vec Ideal S64x128 .f32) (j : S64x128.Idx) :
    bodyLower x0 x1 x2 j = lowerK (x0 j) (x1 j) (x2 j) := by
  unfold bodyLower k0_pay1 k0_pay9 k0_pay6 k0_pay7 k0_pay3 k0_pay4
  simp only [shapeCast_self]
  rfl

/-- The body's upper value at an entry of the block. -/
theorem bodyUpper_apply (x0 x1 : Vec Ideal S64x128 .f32) (j : S64x128.Idx) :
    bodyUpper x0 x1 j = upperK (x0 j) (x1 j) := by
  unfold bodyUpper k0_pay2 k0_pay10 k0_pay11 k0_pay8 k0_pay5 k0_pay6 k0_pay7 k0_pay3 k0_pay4
  simp only [shapeCast_self]
  rfl

/-- An argument reshaped to [64, 128], read where the reshape back to [1, 8192, 1] reads entry i, is its entry i. -/
theorem reshaped_apply (x : FVec Ideal S1x8192x1 .f32) (i : S1x8192x1.Idx) :
    shapeCast S64x128 x shapeCasts_S1x8192x1_S64x128 (Shape.reshapeEquiv shapeCasts_S64x128_S1x8192x1 i) = x i :=
  congrFun (shapeCast_shapeCast x shapeCasts_S1x8192x1_S64x128 shapeCasts_S64x128_S1x8192x1) i

theorem kLower_apply (lb ub al : FVec Ideal S1x8192x1 .f32) (i : S1x8192x1.Idx) :
    kLower lb ub al i = lowerK (lb i) (ub i) (al i) := by
  refine (bodyLower_apply _ _ _ (Shape.reshapeEquiv shapeCasts_S64x128_S1x8192x1 i)).trans ?_
  rw [reshaped_apply, reshaped_apply, reshaped_apply]

theorem kUpper_apply (lb ub : FVec Ideal S1x8192x1 .f32) (i : S1x8192x1.Idx) :
    kUpper lb ub i = upperK (lb i) (ub i) := by
  refine (bodyUpper_apply _ _ (Shape.reshapeEquiv shapeCasts_S64x128_S1x8192x1 i)).trans ?_
  rw [reshaped_apply, reshaped_apply]

end Cert.KernelIdeal.Read

end
-- ==== Proof.LibColumnOps.lean ====
/-
  A vector kept as a column, and a column spread along the rows, as the host spells them (program-independent;
  imports only the library).

  The host writes "keep the reduced axis" as a broadcast of the `[a]` vector into the column `[a, 1]` along axis 0, and
  "divide every row by its own number" as a broadcast of the column `[a, 1]` into `[a, b]` along both axes. Read at an
  index, the first is the vector's entry at the row, and the second the column's entry at the row: the value depends
  on the row alone.
-/
import Idealize.ShloMosaic.Lib.ValueIdx
import Idealize.ShloMosaic.Lib.Pipeline.Value

noncomputable section

namespace Cert.ColumnOps

open Idealize.ShloMosaic Idealize.ShloMosaic.ValueIdx

variable {α : Type}

/-- An `[a]` vector broadcast along axis 0 into the column `[a, 1]` reads, at `(i, z)`, the vector's entry `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (z : Fin 1) :
    broadcastInDim ⟨2, ![a, 1]⟩ ![0] h x (ix2 i z) = x (ix1 i) :=
  broadcastInDim_apply _ h x _ _ (fun c => match c with
    | ⟨0, _⟩ => by
      show i.val = if a = 1 then 0 else i.val
      by_cases ha : a = 1
      · rw [if_pos ha]; have := i.isLt; omega
      · rw [if_neg ha])

/-- A column `[a, 1]` broadcast along both axes into `[a, b]` reads, at `(i, j)`, the column's entry `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

end Cert.ColumnOps

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.RefRead.lean ====
/-
  The reference's results read at an entry.

  The matrix diag(w) has w_k at (k, k) and 0 elsewhere, and so do its positive and negative parts max(·, 0), min(·, 0)
  (max 0 0 = min 0 0 = 0).  Row k of such a matrix times a column x is therefore the single term at q = k: every other
  term is 0 · x_q = 0 on the extended reals, whatever x_q is.  Hence at entry k
      lower = max(w_k, 0) · lb_k + min(w_k, 0) · ub_k + 0,        w = the lower weights,
      upper = max(w_k, 0) · ub_k + min(w_k, 0) · lb_k + bias_k,   w = the upper weights,
  with the weights and the bias the entrywise functions of lb_k, ub_k, alpha_k of the entry law.
-/
import proofs.«172241_j89446988907158_2_alg».proof.Proof.RefStages
import proofs.«172241_j89446988907158_2_alg».proof.Proof.EntryLaw
import proofs.«172241_j89446988907158_2_alg».proof.Proof.LibColumnOps
import proofs.«172241_j89446988907158_2_alg».proof.Proof.LibPlainDot
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx
open Cert.EntryLaw

/-! ## The entrywise stages are the entry law's functions -/

theorem wLower_apply (lb ub al : FVec Ideal S1x8192x1 .f32) (i : S1x8192x1.Idx) :
    wLower lb ub al i = wLowerH (lb i) (ub i) (al i) := rfl

theorem wUpper_apply (lb ub : FVec Ideal S1x8192x1 .f32) (i : S1x8192x1.Idx) :
    wUpper lb ub i = wUpperH (lb i) (ub i) := rfl

theorem biasUpper_apply (lb ub : FVec Ideal S1x8192x1 .f32) (i : S1x8192x1.Idx) :
    biasUpper lb ub i = biasH (lb i) (ub i) := rfl

theorem zeros3_apply (i : S1x8192x1.Idx) : zeros3 (F := Ideal) i = zeroW := rfl

/-! ## The diagonal matrix -/

theorem ofNat_inj_of_lt {a b : ℕ} (ha : a < 8192) (hb : b < 8192) (h : BitVec.ofNat 32 a = BitVec.ofNat 32 b) : a = b := by
  have h2 := congrArg BitVec.toNat h
  rw [BitVec.toNat_ofNat, BitVec.toNat_ofNat,
    Nat.mod_eq_of_lt (Nat.lt_of_lt_of_le ha (by norm_num)), Nat.mod_eq_of_lt (Nat.lt_of_lt_of_le hb (by norm_num))] at h2
  exact h2

/-- "Row number + 0 = column number" holds exactly on the diagonal (8192 rows: the 32-bit counters do not wrap). -/
theorem onDiag_apply (k q : Fin 8192) : onDiag (ix2 k q) = if k = q then 1#1 else 0#1 := by
  show BitVec.ofBool (BitVec.ofNat 32 k.val + 0#32 == BitVec.ofNat 32 q.val) = _
  rw [BitVec.add_zero]
  by_cases h : k = q
  · subst h
    rw [if_pos rfl, beq_self_eq_true]
    rfl
  · have hne : BitVec.ofNat 32 k.val ≠ BitVec.ofNat 32 q.val := fun e => h (Fin.ext (ofNat_inj_of_lt k.isLt q.isLt e))
    rw [if_neg h, beq_eq_false_iff_ne.mpr hne]
    rfl

/-- diag(w) at (k, q): w_k on the diagonal, the zero word off it. -/
theorem diagOf_apply (w : FVec Ideal S1x8192x1 .f32) (k q : Fin 8192) :
    diagOf w (ix2 k q) = if k = q then w (ix3 (0 : Fin 1) k (0 : Fin 1)) else zeroW := by
  unfold diagOf
  rw [select_apply, onDiag_apply]
  by_cases h : k = q
  · rw [if_pos h, if_pos h, select_one]
    refine (Cert.ColumnOps.broadcastInDim_a1_ab_apply _ bcast_S8192x1_S8192x8192_0_1 k q).trans ?_
    refine (Cert.ColumnOps.broadcastInDim_a_a1_apply _ bcast_S8192_S8192x1_0 k 0).trans ?_
    refine (pad_apply_of_inside _ _ _ _ _ pads_S8192_S8192_000 h_S_ (ix1 k) (ix1 k) (fun a => ?_)).trans ?_
    · match a with
      | ⟨0, _⟩ => show k.val = 0 + k.val * (0 + 1); omega
    · exact shapeCast_apply w _ (ix1 k) (ix3 (0 : Fin 1) k (0 : Fin 1)) (by
        rw [Shape.rowMajor_val_three, Shape.rowMajor_val_one]
        show (0 * 8192 + k.val) * 1 + 0 = k.val
        omega)
  · rw [if_neg h, if_neg h, select_zero]
    rfl

/-- Under a leading unit axis the matrix is read at its own coordinates. -/
theorem lift3_apply (W : FVec Ideal S8192x8192 .f32) (a : Fin 1) (k q : Fin 8192) :
    lift3 W (ix3 a k q) = W (ix2 k q) :=
  broadcastInDim_apply _ bcast_S8192x8192_S1x8192x8192_1_2 W _ _ (fun c => match c with
    | ⟨0, _⟩ => by
      show k.val = if (8192 : ℕ) = 1 then 0 else k.val
      rw [if_neg (by decide)]
    | ⟨1, _⟩ => by
      show q.val = if (8192 : ℕ) = 1 then 0 else q.val
      rw [if_neg (by decide)])

theorem posPart_apply (W3 : FVec Ideal S1x8192x8192 .f32) (k q : Fin 8192) :
    Stages.posPart W3 (ix2 k q) = max (W3 (ix3 (0 : Fin 1) k q)) zeroW := by
  unfold Stages.posPart
  refine (shapeCast_apply _ shapeCasts_S1x8192x8192_S8192x8192 (ix2 k q) (ix3 (0 : Fin 1) k q) (by
    rw [Shape.rowMajor_val_three, Shape.rowMajor_val_two]
    show (0 * 8192 + k.val) * 8192 + q.val = k.val * 8192 + q.val
    omega)).trans ?_
  rfl

theorem negPart_apply (W3 : FVec Ideal S1x8192x8192 .f32) (k q : Fin 8192) :
    Stages.negPart W3 (ix2 k q) = min (W3 (ix3 (0 : Fin 1) k q)) zeroW := by
  unfold Stages.negPart
  refine (shapeCast_apply _ shapeCasts_S1x8192x8192_S8192x8192 (ix2 k q) (ix3 (0 : Fin 1) k q) (by
    rw [Shape.rowMajor_val_three, Shape.rowMajor_val_two]
    show (0 * 8192 + k.val) * 8192 + q.val = k.val * 8192 + q.val
    omega)).trans ?_
  rfl

/-! ## A matrix times the column of a [1, 8192, 1] array -/

theorem col_apply (x : FVec Ideal S1x8192x1 .f32) (q : Fin 8192) (z : Fin 1) :
    shapeCast S8192x1 x shapeCasts_S1x8192x1_S8192x1 (ix2 q z) = x (ix3 (0 : Fin 1) q (0 : Fin 1)) :=
  shapeCast_apply x _ (ix2 q z) (ix3 (0 : Fin 1) q (0 : Fin 1)) (by
    rw [Shape.rowMajor_val_three, Shape.rowMajor_val_two]
    show (0 * 8192 + q.val) * 1 + 0 = q.val * 1 + z.val
    have := z.isLt
    omega)

theorem timesCol_apply (A : FVec Ideal S8192x8192 .f32) (x : FVec Ideal S1x8192x1 .f32) (a : Fin 1) (k : Fin 8192) (b : Fin 1) :
    timesCol A x (ix3 a k b) = ∑ q : Fin 8192, A (ix2 k q) * x (ix3 (0 : Fin 1) q (0 : Fin 1)) := by
  unfold timesCol
  refine (broadcastInDim_apply _ bcast_S8192x1_S1x8192x1_1_2 _ (ix3 a k b) (ix2 k (0 : Fin 1)) (fun c => match c with
    | ⟨0, _⟩ => by
      show k.val = if (8192 : ℕ) = 1 then 0 else k.val
      rw [if_neg (by decide)]
    | ⟨1, _⟩ => by
      show (0 : ℕ) = if (1 : ℕ) = 1 then 0 else b.val
      rw [if_pos rfl])).trans ?_
  show FloatOps.dotGeneral (DotDims.plain 8192 8192 1) none .single A (shapeCast S8192x1 x shapeCasts_S1x8192x1_S8192x1)
    (ix2 k (0 : Fin 1)) = _
  refine (Cert.PlainDot.dotGeneral_plain_apply none .single A _ k 0).trans ?_
  exact Finset.sum_congr rfl fun q _ => by rw [col_apply]

/-- Row k of a matrix that is f(w_k) on the diagonal and f(0) = 0 off it, times a column: the one term at q = k. -/
theorem diag_row_sum (f : EReal → EReal) (hf : f zeroW = 0) (w x : FVec Ideal S1x8192x1 .f32) (k : Fin 8192) :
    (∑ q : Fin 8192, f (if k = q then w (ix3 (0 : Fin 1) k (0 : Fin 1)) else zeroW) * x (ix3 (0 : Fin 1) q (0 : Fin 1)))
      = f (w (ix3 (0 : Fin 1) k (0 : Fin 1))) * x (ix3 (0 : Fin 1) k (0 : Fin 1)) := by
  rw [Finset.sum_eq_single k (fun q _ hq => by rw [if_neg (Ne.symm hq), hf, zero_mul])
    (fun h => absurd (Finset.mem_univ k) h), if_pos rfl]

theorem posTimes_apply (w x : FVec Ideal S1x8192x1 .f32) (a : Fin 1) (k : Fin 8192) (b : Fin 1) :
    timesCol (Stages.posPart (lift3 (diagOf w))) x (ix3 a k b)
      = max (w (ix3 (0 : Fin 1) k (0 : Fin 1))) zeroW * x (ix3 (0 : Fin 1) k (0 : Fin 1)) := by
  rw [timesCol_apply]
  simp only [posPart_apply, lift3_apply, diagOf_apply]
  exact diag_row_sum (fun t => max t zeroW) (max_self _ |>.trans zeroW_eq) w x k

theorem negTimes_apply (w x : FVec Ideal S1x8192x1 .f32) (a : Fin 1) (k : Fin 8192) (b : Fin 1) :
    timesCol (Stages.negPart (lift3 (diagOf w))) x (ix3 a k b)
      = min (w (ix3 (0 : Fin 1) k (0 : Fin 1))) zeroW * x (ix3 (0 : Fin 1) k (0 : Fin 1)) := by
  rw [timesCol_apply]
  simp only [negPart_apply, lift3_apply, diagOf_apply]
  exact diag_row_sum (fun t => min t zeroW) (min_self _ |>.trans zeroW_eq) w x k

/-! ## The two results at an entry -/

theorem refLower_apply (lb ub al : FVec Ideal S1x8192x1 .f32) (k : Fin 8192) :
    refLower lb ub al (ix3 (0 : Fin 1) k (0 : Fin 1))
      = lowerH (lb (ix3 (0 : Fin 1) k (0 : Fin 1))) (ub (ix3 (0 : Fin 1) k (0 : Fin 1))) (al (ix3 (0 : Fin 1) k (0 : Fin 1))) := by
  unfold refLower
  rw [addf_apply, addf_apply, posTimes_apply, negTimes_apply, wLower_apply, zeros3_apply]
  rfl

theorem refUpper_apply (lb ub : FVec Ideal S1x8192x1 .f32) (k : Fin 8192) :
    refUpper lb ub (ix3 (0 : Fin 1) k (0 : Fin 1))
      = upperH (lb (ix3 (0 : Fin 1) k (0 : Fin 1))) (ub (ix3 (0 : Fin 1) k (0 : Fin 1))) := by
  unfold refUpper
  rw [addf_apply, addf_apply, posTimes_apply, negTimes_apply, wUpper_apply, biasUpper_apply]
  rfl

end Cert.ReferenceIdeal.Read

end
-- ==== Proof.Bridge.lean ====
/-
  The two programs compute one function of real arguments.

  At every entry the kernel's results are the entry law's first spelling of the entry's three values, and the
  reference's are its second spelling (the diagonal products having collapsed to the entry's own term).  The entry law
  joins them where the three values are real numbers.
-/
import proofs.«172241_j89446988907158_2_alg».proof.Proof.KernelRead
import proofs.«172241_j89446988907158_2_alg».proof.Proof.RefRead

noncomputable section

namespace Cert.Bridge

open Idealize.ShloMosaic Idealize.ShloMosaic.ValueIdx Cert.EntryLaw

theorem lower_eq (lb ub al : FVec Ideal Cert.KernelIdeal.S1x8192x1 .f32)
    (h0 : ∀ i, ∃ r : ℝ, lb i = (r : EReal)) (h1 : ∀ i, ∃ r : ℝ, ub i = (r : EReal)) (h2 : ∀ i, ∃ r : ℝ, al i = (r : EReal)) :
    Cert.KernelIdeal.Hand.kLower lb ub al = Cert.ReferenceIdeal.Stages.refLower lb ub al := by
  funext i
  obtain ⟨a, k, b, rfl⟩ : ∃ (a : Fin 1) (k : Fin 8192) (b : Fin 1), i = ix3 a k b := ⟨i 0, i 1, i 2, eq_ix3 i⟩
  obtain rfl : a = 0 := Subsingleton.elim _ _
  obtain rfl : b = 0 := Subsingleton.elim _ _
  obtain ⟨l, hl⟩ := h0 (ix3 (0 : Fin 1) k (0 : Fin 1))
  obtain ⟨u, hu⟩ := h1 (ix3 (0 : Fin 1) k (0 : Fin 1))
  obtain ⟨z, hz⟩ := h2 (ix3 (0 : Fin 1) k (0 : Fin 1))
  rw [Cert.KernelIdeal.Read.kLower_apply, Cert.ReferenceIdeal.Read.refLower_apply, hl, hu, hz]
  exact lower_law l u z

theorem upper_eq (lb ub : FVec Ideal Cert.KernelIdeal.S1x8192x1 .f32)
    (h0 : ∀ i, ∃ r : ℝ, lb i = (r : EReal)) (h1 : ∀ i, ∃ r : ℝ, ub i = (r : EReal)) :
    Cert.KernelIdeal.Hand.kUpper lb ub = Cert.ReferenceIdeal.Stages.refUpper lb ub := by
  funext i
  obtain ⟨a, k, b, rfl⟩ : ∃ (a : Fin 1) (k : Fin 8192) (b : Fin 1), i = ix3 a k b := ⟨i 0, i 1, i 2, eq_ix3 i⟩
  obtain rfl : a = 0 := Subsingleton.elim _ _
  obtain rfl : b = 0 := Subsingleton.elim _ _
  obtain ⟨l, hl⟩ := h0 (ix3 (0 : Fin 1) k (0 : Fin 1))
  obtain ⟨u, hu⟩ := h1 (ix3 (0 : Fin 1) k (0 : Fin 1))
  rw [Cert.KernelIdeal.Read.kUpper_apply, Cert.ReferenceIdeal.Read.refUpper_apply, hl, hu]
  exact upper_law l u

end Cert.Bridge

end
-- ==== Proof.lean ====
/-
  A ReLU bound-propagation step on 8192 units: kernel against reference, on the extended reals.

  Both programs take the previous lower and upper bounds lb, ub and a slope parameter alpha, each of shape [1, 8192, 1],
  and return the new lower and upper bounds.  Entry by entry, with pos = [lb ≥ 0 and ub ≥ 0], cross = [lb < 0 and ub ≥ 0],
  strict = [lb < 0 and ub > 0], s = ub / (ub − lb):
      lower = (pos + cross · clip(alpha)) · lb,      upper = (pos + cross · s) · ub + strict · (−s · lb).
  The kernel computes exactly this on the arguments reshaped to [64, 128], dividing by 1 where ub − lb = 0.  The reference
  writes clip(alpha) as alpha + (clip(alpha) − alpha), divides by ub − lb unguarded, puts each weight vector on the
  diagonal of an 8192 x 8192 matrix and multiplies the matrix's positive part with one bound and its negative part with
  the other.

  Why they agree at finite inputs (the precondition): the diagonal products collapse to one term per row, every other
  term being 0 · x = 0; the weights are ≥ 0, so the positive part is the weight and the negative part is 0; the clip's
  cancellation holds at a real alpha; and where ub − lb = 0 the unit cannot cross zero, so cross = strict = 0 multiply
  the slope, whichever way the quotient by zero is read.  The modules: EntryLaw (this argument, on one entry), KernelValue
  and KernelRead (the kernel's results as functions of the arguments, and at an entry), RefRun, RefLowerValue,
  RefUpperValue, RefResults, RefArgsValue and RefRead (the same for the reference), FiniteInputs (the precondition read back), Bridge.

  The word-level kernel and its idealization are one text read at two instances (no rewrite was applied), so the
  idealization claim is trivially true; the three frames are the programs' runs with the results dropped.
-/
import proofs.«172241_j89446988907158_2_alg».proof.Defs
import proofs.«172241_j89446988907158_2_alg».proof.Proof.Gen.Kernel
import proofs.«172241_j89446988907158_2_alg».proof.Proof.Gen.Kernel.Skeleton
import proofs.«172241_j89446988907158_2_alg».proof.Proof.Gen.Kernel.Launch
import proofs.«172241_j89446988907158_2_alg».proof.Proof.Gen.Kernel.Points
import proofs.«172241_j89446988907158_2_alg».proof.Proof.Gen.Kernel.Frame
import proofs.«172241_j89446988907158_2_alg».proof.Proof.Gen.KernelIdeal
import proofs.«172241_j89446988907158_2_alg».proof.Proof.Gen.KernelIdeal.Skeleton
import proofs.«172241_j89446988907158_2_alg».proof.Proof.Gen.KernelIdeal.Launch
import proofs.«172241_j89446988907158_2_alg».proof.Proof.Gen.KernelIdeal.Points
import proofs.«172241_j89446988907158_2_alg».proof.Proof.Gen.KernelIdeal.Frame
import proofs.«172241_j89446988907158_2_alg».proof.Proof.Gen.ReferenceIdeal
import proofs.«172241_j89446988907158_2_alg».proof.Proof.Gen.Pre_finite_inputs
import proofs.«172241_j89446988907158_2_alg».proof.Proof.KernelValue
import proofs.«172241_j89446988907158_2_alg».proof.Proof.RefRun
import proofs.«172241_j89446988907158_2_alg».proof.Proof.RefResults
import proofs.«172241_j89446988907158_2_alg».proof.Proof.RefArgsValue
import proofs.«172241_j89446988907158_2_alg».proof.Proof.FiniteInputs
import proofs.«172241_j89446988907158_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and none of its 107 operations writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.HostRun.arg0_eq _),
      (h c Cert.ReferenceIdeal.main_arg1).trans (Cert.ReferenceIdeal.HostRun.arg1_eq _),
      (h c Cert.ReferenceIdeal.main_arg2).trans (Cert.ReferenceIdeal.HostRun.arg2_eq _)⟩)
    (Cert.ReferenceIdeal.HostRun.run_all (F := Ideal) m ρ)

/-- No operation was rewritten: nothing to preserve. -/
theorem preserves : Cert.preserves_Kernel_KernelIdeal := trivial

/-- From memories agreeing on finite arguments both programs end with the same two results: the kernel's run leaves its
    function of the arguments, the reference's run leaves its own, and the bridge says they are one function where the
    arguments are real. -/
theorem algebraic : Cert.algebraic_KernelIdeal_ReferenceIdeal := by
  intro m ρ m' ρ' hpre hagree
  refine ⟨_, _, Cert.KernelIdeal.Hand.run (F := Ideal) m ρ, ?_⟩
  refine (θ_run Cert.ReferenceIdeal.defs _ _).mono (fun _ h c => ?_) (Cert.ReferenceIdeal.HostRun.run_all (F := Ideal) m' ρ')
  obtain ⟨r0, r1, r2⟩ := Cert.FiniteInputs.all_real _ _ _ (hpre c)
  have e0 := (hagree c).1
  have e1 := (hagree c).2.1
  have e2 := (hagree c).2.2
  refine ⟨?_, ?_, (h c Cert.ReferenceIdeal.main_arg0).trans (Cert.ReferenceIdeal.HostRun.arg0_eq _),
    (h c Cert.ReferenceIdeal.main_arg1).trans (Cert.ReferenceIdeal.HostRun.arg1_eq _),
    (h c Cert.ReferenceIdeal.main_arg2).trans (Cert.ReferenceIdeal.HostRun.arg2_eq _)⟩
  · refine (h c Cert.ReferenceIdeal.main_v50).trans ((Cert.ReferenceIdeal.HostRun.lower_launch m' c).trans ?_)
    rw [e0, e1, e2]
    exact (Cert.Bridge.lower_eq _ _ _ r0 r1 r2).symm
  · refine (h c Cert.ReferenceIdeal.main_v64).trans ((Cert.ReferenceIdeal.HostRun.upper_launch m' c).trans ?_)
    rw [e0, e1]
    exact (Cert.Bridge.upper_eq _ _ r0 r1).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
